-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S625000x128 : Shape := ⟨2, ![625000, 128]⟩
abbrev S625000x3 : Shape := ⟨2, ![625000, 3]⟩
abbrev S625000 : Shape := ⟨1, ![625000]⟩
abbrev S100000 : Shape := ⟨1, ![100000]⟩
abbrev S256x1 : Shape := ⟨2, ![256, 1]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S625000x128 : S_.BroadcastsInDim S625000x128 (![] : Fin 0 → Fin S625000x128.rank)
  reducesTo_S625000x128_S_d0_1 : S625000x128.ReducesTo [0, 1] S_
  bcast_S_S625000x3 : S_.BroadcastsInDim S625000x3 (![] : Fin 0 → Fin S625000x3.rank)
  reducesTo_S625000x3_S_d0_1 : S625000x3.ReducesTo [0, 1] S_
  bcast_S_S256x1 : S_.BroadcastsInDim S256x1 (![] : Fin 0 → Fin S256x1.rank)
  reducesTo_S256x1_S_d0_1 : S256x1.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128x1 .f32) (main_arg7 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S128x1 .f32 := Host.absf main_arg6
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : FVec F S625000x128 .f32) (main_arg2 : FVec F S625000x3 .f32) (main_arg3 : IVec S625000 32) (main_arg4 : IVec S100000 32) (main_arg5 : FVec F S256x1 .f32) (main_arg6 : FVec F S128x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S625000x128 .f32 := Host.absf main_arg1
  let main_cst_0 : FVec F S_ .f32 := constant S_ .f32 0x7F800000#32
  let main_v5 : FVec F S625000x128 .f32 := broadcastInDim S625000x128 ![] bcast_S_S625000x128 main_cst_0
  let main_v6 : IVec S625000x128 1 := cmpf .olt main_v4 main_v5
  let main_c_1 : IVec S_ 1 := constantI S_ 1 1#1
  let main_v7 : IVec S_ 1 := (fun x v => Host.reduce IntOp.andi x v reducesTo_S625000x128_S_d0_1 h_S_) main_v6 main_c_1
  let main_v8 : IVec S_ 1 := andi main_v3 main_v7
  let main_v9 : FVec F S625000x3 .f32 := Host.absf main_arg2
  let main_cst_2 : FVec F S_ .f32 := constant S_ .f32 0x7F800000#32
  let main_v10 : FVec F S625000x3 .f32 := broadcastInDim S625000x3 ![] bcast_S_S625000x3 main_cst_2
  let main_v11 : IVec S625000x3 1 := cmpf .olt main_v9 main_v10
  let main_c_3 : IVec S_ 1 := constantI S_ 1 1#1
  let main_v12 : IVec S_ 1 := (fun x v => Host.reduce IntOp.andi x v reducesTo_S625000x3_S_d0_1 h_S_) main_v11 main_c_3
  let main_v13 : IVec S_ 1 := andi main_v8 main_v12
  let main_v14 : FVec F S256x1 .f32 := Host.absf main_arg5
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg6 main_arg7 main_v13 main_v16
-- ==== Kernel.lean ====
abbrev S100000x256 : Shape := ⟨2, ![100000, 256]⟩
abbrev S625000x128 : Shape := ⟨2, ![625000, 128]⟩
abbrev S625000x3 : Shape := ⟨2, ![625000, 3]⟩
abbrev S625000 : Shape := ⟨1, ![625000]⟩
abbrev S100000 : Shape := ⟨1, ![100000]⟩
abbrev S256x1 : Shape := ⟨2, ![256, 1]⟩
abbrev S128x1 : Shape := ⟨2, ![128, 1]⟩
abbrev S1 : Shape := ⟨1, ![1]⟩
abbrev S100000x1 : Shape := ⟨2, ![100000, 1]⟩
abbrev S10000x256 : Shape := ⟨2, ![10000, 256]⟩
abbrev S10000x1 : Shape := ⟨2, ![10000, 1]⟩
abbrev S_ : Shape := ⟨0, ![]⟩
abbrev S1000x1 : Shape := ⟨2, ![1000, 1]⟩
abbrev S1000 : Shape := ⟨1, ![1000]⟩
abbrev S630000x128 : Shape := ⟨2, ![630000, 128]⟩
abbrev S630000x1 : Shape := ⟨2, ![630000, 1]⟩
abbrev S10000x128 : Shape := ⟨2, ![10000, 128]⟩
abbrev S1x1 : Shape := ⟨2, ![1, 1]⟩
abbrev S625000x1 : Shape := ⟨2, ![625000, 1]⟩
abbrev S100000x3 : Shape := ⟨2, ![100000, 3]⟩

abbrev nBuf : Space → Nat
  | .hbm => 25
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S625000x128, .f32⟩
  | .hbm, ⟨2, _⟩ => ⟨S625000x3, .f32⟩
  | .hbm, ⟨3, _⟩ => ⟨S625000, .i32⟩
  | .hbm, ⟨4, _⟩ => ⟨S100000, .i32⟩
  | .hbm, ⟨5, _⟩ => ⟨S256x1, .f32⟩
  | .hbm, ⟨6, _⟩ => ⟨S128x1, .f32⟩
  | .hbm, ⟨7, _⟩ => ⟨S1, .f32⟩
  | .hbm, ⟨8, _⟩ => ⟨S100000x1, .f32⟩
  | .hbm, ⟨9, _⟩ => ⟨S_, .f32⟩
  | .hbm, ⟨10, _⟩ => ⟨S1000x1, .f32⟩
  | .hbm, ⟨11, _⟩ => ⟨S100000x1, .i32⟩
  | .hbm, ⟨12, _⟩ => ⟨S1000x1, .f32⟩
  | .hbm, ⟨13, _⟩ => ⟨S1000, .f32⟩
  | .hbm, ⟨14, _⟩ => ⟨S_, .i32⟩
  | .hbm, ⟨15, _⟩ => ⟨S_, .f32⟩
  | .hbm, ⟨16, _⟩ => ⟨S630000x128, .f32⟩
  | .hbm, ⟨17, _⟩ => ⟨S630000x1, .f32⟩
  | .hbm, ⟨18, _⟩ => ⟨S625000x1, .f32⟩
  | .hbm, ⟨19, _⟩ => ⟨S625000x3, .f32⟩
  | .hbm, ⟨20, _⟩ => ⟨S625000x3, .f32⟩
  | .hbm, ⟨21, _⟩ => ⟨S_, .f32⟩
  | .hbm, ⟨22, _⟩ => ⟨S100000x3, .f32⟩
  | .hbm, ⟨23, _⟩ => ⟨S625000x1, .i32⟩
  | .hbm, ⟨24, _⟩ => ⟨S100000x3, .f32⟩
  | .local _ .vmem, ⟨0, _⟩ => ⟨S10000x256, .f32⟩
  | .local _ .vmem, ⟨1, _⟩ => ⟨S10000x256, .f32⟩
  | .local _ .vmem, ⟨2, _⟩ => ⟨S256x1, .f32⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S128x1, .f32⟩
  | .local _ .vmem, ⟨8, _⟩ => ⟨S1, .f32⟩
  | .local _ .vmem, ⟨9, _⟩ => ⟨S10000x1, .f32⟩
  | .local _ .vmem, ⟨10, _⟩ => ⟨S10000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![63], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x1_S256x1_0_0 : ∀ a, (![0, 0] : Fin 2 → Nat) a + S256x1.size a ≤ S256x1.size a
  h_S256x1 : 0 < S256x1.numel
  inb_S10000x1_S10000x1_0_0 : ∀ a, (![0, 0] : Fin 2 → Nat) a + S10000x1.size a ≤ S10000x1.size a
  h_S10000x1 : 0 < S10000x1.numel
  bcast_S_S1000x1 : S_.BroadcastsInDim S1000x1 (![] : Fin 0 → Fin S1000x1.rank)
  bcast_S100000_S100000x1_0 : S100000.BroadcastsInDim S100000x1 (![0] : Fin 1 → Fin S100000x1.rank)
  shapeCasts_S1000x1_S1000 : S1000x1.ShapeCasts S1000
  pads_S625000x128_S630000x128_050000_000 : S625000x128.Pads (![0, 0] : Fin 2 → Nat) ![5000, 0] ![0, 0] S630000x128
  h_S_ : 0 < S_.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S10000x1 : S1x1.Broadcasts S10000x1
  slices_S630000x1_S625000x1_0_0 : S630000x1.Slices ![0, 0] S625000x1
  bcast_S625000x1_S625000x3_0_1 : S625000x1.BroadcastsInDim S625000x3 (![0, 1] : Fin 2 → Fin S625000x3.rank)
  bcast_S_S100000x3 : S_.BroadcastsInDim S100000x3 (![] : Fin 0 → Fin S100000x3.rank)
  bcast_S625000_S625000x1_0 : S625000.BroadcastsInDim S625000x1 (![0] : Fin 1 → Fin S625000x1.rank)
  dot_S10000x256_S256x1_S10000x1_1_0_0_1_n_n_wf : DotDims.WF S10000x256 S256x1 S10000x1 [1] [0] [0] [1] [] []
  scatter_S1000x1_S100000x1_S100000x1_1_0_0_1_wf : ScatterDims.WF S1000x1 S100000x1 S100000x1 [1] [0] [0] 1
  dot_S10000x128_S128x1_S10000x1_1_0_0_1_n_n_wf : DotDims.WF S10000x128 S128x1 S10000x1 [1] [0] [0] [1] [] []
  scatter_S100000x3_S625000x1_S625000x3_1_0_0_1_wf : ScatterDims.WF S100000x3 S625000x1 S625000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S630000x128.size a
  hwx1_0 : ∀ i : grid1.Coords, EltTy.bits .f32 = 32 ∨ (Rect.block (s := S630000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S630000x1.size a
  hwx1_3 : ∀ i : grid1.Coords, EltTy.bits .f32 = 32 ∨ (Rect.block (s := S630000x1) S10000x1.size (cc1_transform_3 i) (hinb1_3 i)).WholeWords (EltTy.packing .f32)

variable [Facts₀]

def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def scatter_S100000x3_S625000x1_S625000x3_1_0_0_1 : ScatterDims S100000x3 S625000x1 S625000x3 where
  updateWindowDims := [1]
  insertedWindowDims := [0]
  scatterDimsToOperandDims := [0]
  indexVectorDim := 1
  wf := scatter_S100000x3_S625000x1_S625000x3_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S625000x128 : Shape := ⟨2, ![625000, 128]⟩
abbrev S625000x3 : Shape := ⟨2, ![625000, 3]⟩
abbrev S625000 : Shape := ⟨1, ![625000]⟩
abbrev S100000 : Shape := ⟨1, ![100000]⟩
abbrev S256x1 : Shape := ⟨2, ![256, 1]⟩
abbrev S128x1 : Shape := ⟨2, ![128, 1]⟩
abbrev S1 : Shape := ⟨1, ![1]⟩
abbrev S100000x1 : Shape := ⟨2, ![100000, 1]⟩
abbrev S_ : Shape := ⟨0, ![]⟩
abbrev S1000x1 : Shape := ⟨2, ![1000, 1]⟩
abbrev S1000 : Shape := ⟨1, ![1000]⟩
abbrev S625000x1 : Shape := ⟨2, ![625000, 1]⟩
abbrev S1x1 : Shape := ⟨2, ![1, 1]⟩
abbrev S100000x3 : Shape := ⟨2, ![100000, 3]⟩

abbrev nBuf : Space → Nat
  | .hbm => 24
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S625000x128, .f32⟩
  | .hbm, ⟨2, _⟩ => ⟨S625000x3, .f32⟩
  | .hbm, ⟨3, _⟩ => ⟨S625000, .i32⟩
  | .hbm, ⟨4, _⟩ => ⟨S100000, .i32⟩
  | .hbm, ⟨5, _⟩ => ⟨S256x1, .f32⟩
  | .hbm, ⟨6, _⟩ => ⟨S128x1, .f32⟩
  | .hbm, ⟨7, _⟩ => ⟨S1, .f32⟩
  | .hbm, ⟨8, _⟩ => ⟨S100000x1, .f32⟩
  | .hbm, ⟨9, _⟩ => ⟨S_, .f32⟩
  | .hbm, ⟨10, _⟩ => ⟨S1000x1, .f32⟩
  | .hbm, ⟨11, _⟩ => ⟨S100000x1, .i32⟩
  | .hbm, ⟨12, _⟩ => ⟨S1000x1, .f32⟩
  | .hbm, ⟨13, _⟩ => ⟨S1000, .f32⟩
  | .hbm, ⟨14, _⟩ => ⟨S625000x1, .f32⟩
  | .hbm, ⟨15, _⟩ => ⟨S1x1, .f32⟩
  | .hbm, ⟨16, _⟩ => ⟨S625000x1, .f32⟩
  | .hbm, ⟨17, _⟩ => ⟨S625000x1, .f32⟩
  | .hbm, ⟨18, _⟩ => ⟨S625000x3, .f32⟩
  | .hbm, ⟨19, _⟩ => ⟨S625000x3, .f32⟩
  | .hbm, ⟨20, _⟩ => ⟨S_, .f32⟩
  | .hbm, ⟨21, _⟩ => ⟨S100000x3, .f32⟩
  | .hbm, ⟨22, _⟩ => ⟨S625000x1, .i32⟩
  | .hbm, ⟨23, _⟩ => ⟨S100000x3, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S1000x1 : S_.BroadcastsInDim S1000x1 (![] : Fin 0 → Fin S1000x1.rank)
  bcast_S100000_S100000x1_0 : S100000.BroadcastsInDim S100000x1 (![0] : Fin 1 → Fin S100000x1.rank)
  shapeCasts_S1000x1_S1000 : S1000x1.ShapeCasts S1000
  bcast_S1_S1x1_1 : S1.BroadcastsInDim S1x1 (![1] : Fin 1 → Fin S1x1.rank)
  bcast_S1x1_S625000x1_0_1 : S1x1.BroadcastsInDim S625000x1 (![0, 1] : Fin 2 → Fin S625000x1.rank)
  bcast_S625000x1_S625000x3_0_1 : S625000x1.BroadcastsInDim S625000x3 (![0, 1] : Fin 2 → Fin S625000x3.rank)
  bcast_S_S100000x3 : S_.BroadcastsInDim S100000x3 (![] : Fin 0 → Fin S100000x3.rank)
  bcast_S625000_S625000x1_0 : S625000.BroadcastsInDim S625000x1 (![0] : Fin 1 → Fin S625000x1.rank)
  dot_S100000x256_S256x1_S100000x1_1_0_0_1_n_n_wf : DotDims.WF S100000x256 S256x1 S100000x1 [1] [0] [0] [1] [] []
  scatter_S1000x1_S100000x1_S100000x1_1_0_0_1_wf : ScatterDims.WF S1000x1 S100000x1 S100000x1 [1] [0] [0] 1
  dot_S625000x128_S128x1_S625000x1_1_0_0_1_n_n_wf : DotDims.WF S625000x128 S128x1 S625000x1 [1] [0] [0] [1] [] []
  scatter_S100000x3_S625000x1_S625000x3_1_0_0_1_wf : ScatterDims.WF S100000x3 S625000x1 S625000x3 [1] [0] [0] 1

variable [Facts₀]

def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S625000x128_S128x1_S625000x1_1_0_0_1_n_n : DotDims S625000x128 S128x1 S625000x1 where
  lhsContracting := [1]
  rhsContracting := [0]
  lhsNonContracting := [0]
  rhsNonContracting := [1]
  lhsBatch := []
  rhsBatch := []
  wf := dot_S625000x128_S128x1_S625000x1_1_0_0_1_n_n_wf
def scatter_S100000x3_S625000x1_S625000x3_1_0_0_1 : ScatterDims S100000x3 S625000x1 S625000x3 where
  updateWindowDims := [1]
  insertedWindowDims := [0]
  scatterDimsToOperandDims := [0]
  indexVectorDim := 1
  wf := scatter_S100000x3_S625000x1_S625000x3_1_0_0_1_wf

class Facts : Prop extends Facts₀ where

variable [Facts]
-- ==== Proof.KernelRun.lean ====
/-
  The kernel program's run with its two results named.

  The program is five segments: the energy region, a stretch of host operations (the first scatter-add and its
  reshape), the padding of the edge features, the forces region, and a last stretch of host operations (slice,
  broadcast, product with the edge vectors, the second scatter-add). The contents of the TensorCore's buffers at each
  boundary are a fold from the launch memory; the last boundary's contents are `W5`. Every weakly fair execution
  terminates, and in the final state each unscoped buffer holds `W5`'s contents: in particular the two results do, and
  the eight arguments hold what they were launched with.
-/
import proofs.«160239_j86337432584822_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with the two result buffers at the last boundary's contents
    and the arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v12) = W5 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       h c _ (mem_uc main_v12 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Results

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«160239_j86337432584822_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.RowDot.lean ====
/-
  The two linear heads as functions of whole arrays, over the extended reals.

  `rowDot a w` is the one-column matrix whose entry (r, 0) is the sum over k of a (r, k) * w (k, 0): a matrix times a
  one-column matrix. `rowDotBias a w b` adds the single entry of a length-one vector `b` to every row. The host's
  plain matrix product of an [M, K] matrix by a [K, 1] matrix is `rowDot`, entry by entry.
-/
import Idealize.ShloMosaic.PureOps.Ideal.Laws
import Idealize.ShloMosaic.Lib.ValueIdx
import proofs.«160239_j86337432584822_1_alg».proof.Proof.LibHostDotPlain

noncomputable section

open scoped BigOperators

namespace Cert.RowDot

open Idealize.ShloMosaic Idealize.ShloMosaic.ValueIdx

/-- Row r of `a` against the one column of `w`: the sum over k of a (r, k) * w (k, 0). -/
def rowDot (M K : Nat) (a : (⟨2, ![M, K]⟩ : Shape).Idx → EReal) (w : (⟨2, ![K, 1]⟩ : Shape).Idx → EReal) :
    (⟨2, ![M, 1]⟩ : Shape).Idx → EReal :=
  fun i => ∑ k : Fin K, a (ix2 (i 0) k) * w (ix2 k (i 1))

/-- The same with the one entry of `b` added to every row. -/
def rowDotBias (M K : Nat) (a : (⟨2, ![M, K]⟩ : Shape).Idx → EReal) (w : (⟨2, ![K, 1]⟩ : Shape).Idx → EReal)
    (b : (⟨1, ![1]⟩ : Shape).Idx → EReal) : (⟨2, ![M, 1]⟩ : Shape).Idx → EReal :=
  fun i => rowDot M K a w i + b (ix1 0)

/-- The host's product of an [M, K] matrix by a [K, 1] matrix is `rowDot`. -/
theorem hostDot_eq (M K : Nat) (a : FVec Ideal ⟨2, ![M, K]⟩ .f32) (w : FVec Ideal ⟨2, ![K, 1]⟩ .f32) :
    Host.dotGeneral (F := Ideal) (DotDims.plain M K 1) none a w = rowDot M K a w :=
  funext fun j => HostDotPlain.dotGeneral_apply none a w j

end Cert.RowDot

end
-- ==== Proof.EnergyArray.lean ====
/-
  The energy head's array after its region.

  The region walks the 100000 rows of the atom features in 10 tiles of 10000 rows. At tile t it multiplies rows
  10000 t … 10000 t + 9999 of the features (all 256 columns) by the whole one-column weight matrix, into a zero
  accumulator, and writes the 10000 results back as rows 10000 t … 10000 t + 9999 of the output column. A change of
  float format is the identity on the extended reals, so entry (r, 0) of a tile's result is the sum over k of
  feature (10000 t + r, k) * weight (k, 0): the tile is the tile of `rowDot` of the whole arrays. The ten tiles cover
  the output column (row r lies in tile r / 10000), so the column ends holding `rowDot` of the features and the weights.
-/
import proofs.«160239_j86337432584822_1_alg».proof.Proof.Gen.KernelIdeal.Frame
import proofs.«160239_j86337432584822_1_alg».proof.Proof.LibMatmulPlain
import proofs.«160239_j86337432584822_1_alg».proof.Proof.RowDot
import Idealize.ShloMosaic.Lib.Pipeline.Value
import Idealize.ShloMosaic.Lib.ValueIdx

set_option maxRecDepth 16384

noncomputable section

open scoped BigOperators

namespace Cert.KernelIdeal.Energy

open Cert.KernelIdeal Cert.KernelIdeal.Gen Cert.RowDot
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-two buffer, as the zero function. -/
theorem origin2 : (![0, 0] : Fin 2 → Nat) = fun _ => 0 := funext fun a => by fin_cases a <;> rfl

/-- A tile's result at row r: the sum over k of the tile's feature (r, k) times weight (k, 0). -/
theorem tile_entry (x : Vec Ideal S10000x256 .f32) (w : Vec Ideal S256x1 .f32) (j : S10000x1.Idx) :
    k0_pay1 x w j = ∑ k : Fin 256, x (ix2 (j 0) k) * w (ix2 k (j 1)) := by
  unfold k0_pay1
  exact MatmulPlain.matmul_zero_apply none _ _ j

/-- A tile whose features are rows of `A` and whose weights are `W` computes, at its row r, entry i of `rowDot A W` for the
    array row i that r is. -/
theorem tile_of_rowDot (A : S100000x256.Idx → EReal) (W : S256x1.Idx → EReal) (x : Vec Ideal S10000x256 .f32)
    (w : Vec Ideal S256x1 .f32) (j : S10000x1.Idx) (i : S100000x1.Idx)
    (hx : ∀ k : Fin 256, x (ix2 (j 0) k) = A (ix2 (i 0) k)) (hw : ∀ k : Fin 256, w (ix2 k (j 1)) = W (ix2 k (i 1))) :
    k0_pay1 x w j = rowDot 100000 256 A W i :=
  (tile_entry x w j).trans (Finset.sum_congr rfl fun k _ => by rw [hx k, hw k])

/-- Where the three windows' tiles sit, decided over the ten tiles: the feature tile and the output tile are tile t of
    their arrays along the rows and start at column 0; the weight matrix is taken whole. -/
theorem tiles_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What tile t writes back is tile t of `rowDot` of the feature and weight arrays as the region finds them. -/
theorem flushed_eq (c : Dev nD) (t : Fin cfg0.N) :
    (dat0 V c).flushed 2 t
      = ((cfg0.win 2).blk t).view.read (Elt Ideal) (rowDot 100000 256 (V c main_arg0) (V c main_arg5)) := by
  show (cfg0.win 2).cut (grid0.coords t) ((dat0 V c).after 2 t) = _
  rw [after0_2]
  unfold out0_2
  rw [View.canon_unit_zero origin2]
  simp only [View.ld_unit_zero (S := S10000x256) origin2, View.ld_unit_zero (S := S256x1) origin2]
  funext j
  show k0_pay1 (iblk0 V c 0 t) (iblk0 V c 1 t) j
    = rowDot 100000 256 (V c main_arg0) (V c main_arg5) (((cfg0.win 2).blk t).view.emb j)
  obtain ⟨e00, e01, e10, e11, e20, e21⟩ := tiles_at t
  refine tile_of_rowDot _ _ _ _ j _ (fun k => ?_) (fun k => ?_)
  · show V c main_arg0 (((cfg0.win 0).blk t).view.emb (ix2 (j 0) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 256 + 1 * k.val = k.val
      omega
  · show V c main_arg5 (((cfg0.win 1).blk t).view.emb (ix2 k (j 1))) = _
    refine congrArg (V c main_arg5) (funext fun a => Fin.ext ?_)
    match a with
    | ⟨0, _⟩ =>
      show win0_1.index t (0 : Fin 2) * 256 + 1 * k.val = k.val
      omega
    | ⟨1, _⟩ =>
      show win0_1.index t (1 : Fin 2) * 1 + 1 * (j 1).val = win0_2.index t (1 : Fin 2) * 1 + 1 * (j 1).val
      omega

/-- A row index of the output column lies in tile t exactly when, on each axis, it is within the tile's range. -/
theorem mem_tile (t : Fin cfg0.N) (i : S100000x1.Idx) :
    i ∈ ((cfg0.win 2).blk t).view.set ↔ ∀ a : Fin 2, win0_2.index t a * S10000x1.size a ≤ (i a).val
      ∧ (i a).val < win0_2.index t a * S10000x1.size a + S10000x1.size a := by
  show i ∈ ((View.whole main_v0).slice (win0_2.rect t)).set ↔ _
  rw [View.set_slice_whole, Rect.mem_set_unit]
  exact Iff.rfl

/-- Each of the ten row ranges is some tile's. -/
theorem tile_onto : ∀ q : Fin 10, ∃ t : Fin cfg0.N, win0_2.index t (0 : Fin 2) = q.val ∧ win0_2.index t (1 : Fin 2) = 0 :=
  (by decide +kernel : ∀ q : Fin 10, ∃ t : Fin grid0.N, win0_2.index t (0 : Fin 2) = q.val ∧ win0_2.index t (1 : Fin 2) = 0)

/-- Every entry of the output column is written back by some tile: row r by tile r / 10000. -/
theorem covered (i : S100000x1.Idx) :
    ∃ t : Fin cfg0.N, (cfg0.win 2).flush t = true ∧ i ∈ ((cfg0.win 2).blk t).view.set := by
  have hi0 : (i 0).val < 100000 := (i 0).isLt
  have hi1 : (i 1).val < 1 := (i 1).isLt
  obtain ⟨t, q0, q1⟩ := tile_onto ⟨(i 0).val / 10000, by omega⟩
  have q0' : win0_2.index t (0 : Fin 2) = (i 0).val / 10000 := q0
  refine ⟨t, flush0_2 t, ?_⟩
  rw [mem_tile]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 1 ≤ (i 1).val ∧ (i 1).val < win0_2.index t (1 : Fin 2) * 1 + 1
    omega

/-- The output column after the region: `rowDot` of the feature and weight arrays as the region finds them. -/
theorem final (c : Dev nD) :
    (dat0 V c).arrAt 2 cfg0.N = rowDot 100000 256 (V c main_arg0) (V c main_arg5) :=
  (dat0 V c).arrAt_eq_of_cover 2 _ (fun t _ => flushed_eq V c t) covered

end Cert.KernelIdeal.Energy

end
-- ==== Proof.ForcesArray.lean ====
/-
  The forces head's array after its region.

  The region walks the 630000 rows of the zero-padded edge features in 63 tiles of 10000 rows. At tile t it multiplies
  rows 10000 t … 10000 t + 9999 of the features (all 128 columns) by the whole one-column weight matrix, into a zero
  accumulator, adds the one entry of the bias vector to every row, and writes the 10000 results back as rows
  10000 t … 10000 t + 9999 of the output column. A change of float format and a cast to the same shape are the
  identity on the extended reals, and the bias, cast from [1] to [1, 1] and broadcast to [10000, 1], is its one entry
  at every row. So entry (r, 0) of a tile's result is the sum over k of feature (10000 t + r, k) * weight (k, 0), plus
  the bias: the tile is the tile of `rowDotBias` of the whole arrays. The 63 tiles cover the output column (row r lies
  in tile r / 10000), so the column ends holding `rowDotBias` of the padded features, the weights and the bias.
-/
import proofs.«160239_j86337432584822_1_alg».proof.Proof.Gen.KernelIdeal.Frame
import proofs.«160239_j86337432584822_1_alg».proof.Proof.LibMatmulPlain
import proofs.«160239_j86337432584822_1_alg».proof.Proof.RowDot
import Idealize.ShloMosaic.Lib.Pipeline.Value
import Idealize.ShloMosaic.Lib.ValueIdx

set_option maxRecDepth 16384

noncomputable section

open scoped BigOperators

namespace Cert.KernelIdeal.Forces

open Cert.KernelIdeal Cert.KernelIdeal.Gen Cert.RowDot
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The origin of a rank-two buffer, and of a rank-one buffer, as the zero function. -/
theorem origin2 : (![0, 0] : Fin 2 → Nat) = fun _ => 0 := funext fun a => by fin_cases a <;> rfl
theorem origin1 : (![0] : Fin 1 → Nat) = fun _ => 0 := funext fun a => by fin_cases a <;> rfl

/-- A length-one vector has one index. -/
theorem only_index (x : S1.Idx) : x = ix1 0 := by
  funext a
  match a with
  | ⟨0, _⟩ => exact Fin.ext (by have h : (x 0).val < 1 := (x 0).isLt; show (x 0).val = 0; omega)

/-- The bias, cast to [1, 1] and broadcast down the rows, is its one entry at every row. -/
theorem bias_entry (b : Vec Ideal S1 .f32) (j : S10000x1.Idx) :
    broadcastTo S10000x1 (shapeCast S1x1 b shapeCasts_S1_S1x1) broadcasts_S1x1_S10000x1 j = b (ix1 0) := by
  unfold broadcastTo shapeCast
  exact congrArg b (only_index _)

/-- A tile's result at row r: the sum over k of the tile's feature (r, k) times weight (k, 0), plus the bias. -/
theorem tile_entry (x : Vec Ideal S10000x128 .f32) (w : Vec Ideal S128x1 .f32) (b : Vec Ideal S1 .f32)
    (j : S10000x1.Idx) :
    k1_pay1 x w b j = (∑ k : Fin 128, x (ix2 (j 0) k) * w (ix2 k (j 1))) + b (ix1 0) := by
  unfold k1_pay1
  refine (addf_apply _ _ j).trans ?_
  refine congrArg₂ (· + ·) ?_ (bias_entry b j)
  refine (MatmulPlain.matmul_zero_apply none _ _ j).trans ?_
  refine Finset.sum_congr rfl fun k _ => ?_
  rw [truncf_apply, truncf_apply, shapeCast_self]

/-- A tile whose features are rows of `A`, whose weights are `W` and whose bias is `B`'s computes, at its row r, entry i of
    `rowDotBias A W B` for the array row i that r is. -/
theorem tile_of_rowDotBias (A : S630000x128.Idx → EReal) (W : S128x1.Idx → EReal) (B : S1.Idx → EReal)
    (x : Vec Ideal S10000x128 .f32) (w : Vec Ideal S128x1 .f32) (b : Vec Ideal S1 .f32) (j : S10000x1.Idx)
    (i : S630000x1.Idx) (hx : ∀ k : Fin 128, x (ix2 (j 0) k) = A (ix2 (i 0) k))
    (hw : ∀ k : Fin 128, w (ix2 k (j 1)) = W (ix2 k (i 1))) (hb : b (ix1 0) = B (ix1 0)) :
    k1_pay1 x w b j = rowDotBias 630000 128 A W B i :=
  (tile_entry x w b j).trans (congrArg₂ (· + ·) (Finset.sum_congr rfl fun k _ => by rw [hx k, hw k]) hb)

/-- Where the four windows' tiles sit, decided over the 63 tiles: the feature tile and the output tile are tile t of
    their arrays along the rows and start at column 0; the weight matrix and the bias vector are taken whole. -/
theorem tiles_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What tile t writes back is tile t of `rowDotBias` of the padded feature, weight and bias arrays as the region
    finds them. -/
theorem flushed_eq (c : Dev nD) (t : Fin cfg1.N) :
    (dat1 V c).flushed 3 t
      = ((cfg1.win 3).blk t).view.read (Elt Ideal)
          (rowDotBias 630000 128 (V c main_v5) (V c main_arg6) (V c main_arg7)) := by
  show (cfg1.win 3).cut (grid1.coords t) ((dat1 V c).after 3 t) = _
  rw [after1_3]
  unfold out1_3
  rw [View.canon_unit_zero origin2]
  simp only [View.ld_unit_zero (S := S10000x128) origin2, View.ld_unit_zero (S := S128x1) origin2,
    View.ld_unit_zero (S := S1) origin1]
  funext j
  show k1_pay1 (iblk1 V c 0 t) (iblk1 V c 1 t) (iblk1 V c 2 t) j
    = rowDotBias 630000 128 (V c main_v5) (V c main_arg6) (V c main_arg7) (((cfg1.win 3).blk t).view.emb j)
  obtain ⟨e00, e01, e10, e11, e20, e30, e31⟩ := tiles_at t
  refine tile_of_rowDotBias _ _ _ _ _ _ j _ (fun k => ?_) (fun k => ?_) ?_
  · show V c main_v5 (((cfg1.win 0).blk t).view.emb (ix2 (j 0) k)) = _
    refine congrArg (V c main_v5) (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 128 + 1 * k.val = k.val
      omega
  · show V c main_arg6 (((cfg1.win 1).blk t).view.emb (ix2 k (j 1))) = _
    refine congrArg (V c main_arg6) (funext fun a => Fin.ext ?_)
    match a with
    | ⟨0, _⟩ =>
      show win1_1.index t (0 : Fin 2) * 128 + 1 * k.val = k.val
      omega
    | ⟨1, _⟩ =>
      show win1_1.index t (1 : Fin 2) * 1 + 1 * (j 1).val = win1_3.index t (1 : Fin 2) * 1 + 1 * (j 1).val
      omega
  · show V c main_arg7 (((cfg1.win 2).blk t).view.emb (ix1 0)) = _
    exact congrArg (V c main_arg7) (only_index _)

/-- A row index of the output column lies in tile t exactly when, on each axis, it is within the tile's range. -/
theorem mem_tile (t : Fin cfg1.N) (i : S630000x1.Idx) :
    i ∈ ((cfg1.win 3).blk t).view.set ↔ ∀ a : Fin 2, win1_3.index t a * S10000x1.size a ≤ (i a).val
      ∧ (i a).val < win1_3.index t a * S10000x1.size a + S10000x1.size a := by
  show i ∈ ((View.whole main_v6).slice (win1_3.rect t)).set ↔ _
  rw [View.set_slice_whole, Rect.mem_set_unit]
  exact Iff.rfl

/-- Each of the 63 row ranges is some tile's. -/
theorem tile_onto : ∀ q : Fin 63, ∃ t : Fin cfg1.N, win1_3.index t (0 : Fin 2) = q.val ∧ win1_3.index t (1 : Fin 2) = 0 :=
  (by decide +kernel : ∀ q : Fin 63, ∃ t : Fin grid1.N, win1_3.index t (0 : Fin 2) = q.val ∧ win1_3.index t (1 : Fin 2) = 0)

/-- Every entry of the output column is written back by some tile: row r by tile r / 10000. -/
theorem covered (i : S630000x1.Idx) :
    ∃ t : Fin cfg1.N, (cfg1.win 3).flush t = true ∧ i ∈ ((cfg1.win 3).blk t).view.set := by
  have hi0 : (i 0).val < 630000 := (i 0).isLt
  have hi1 : (i 1).val < 1 := (i 1).isLt
  obtain ⟨t, q0, q1⟩ := tile_onto ⟨(i 0).val / 10000, by omega⟩
  have q0' : win1_3.index t (0 : Fin 2) = (i 0).val / 10000 := q0
  refine ⟨t, flush1_3 t, ?_⟩
  rw [mem_tile]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 1 ≤ (i 1).val ∧ (i 1).val < win1_3.index t (1 : Fin 2) * 1 + 1
    omega

/-- The output column after the region: `rowDotBias` of the padded feature, weight and bias arrays as the region
    finds them. -/
theorem final (c : Dev nD) :
    (dat1 V c).arrAt 3 cfg1.N = rowDotBias 630000 128 (V c main_v5) (V c main_arg6) (V c main_arg7) :=
  (dat1 V c).arrAt_eq_of_cover 3 _ (fun t _ => flushed_eq V c t) covered

end Cert.KernelIdeal.Forces

end
-- ==== Proof.HostRead.lean ====
/-
  The kernel program's two results as host operations of the two heads' arrays.

  The last boundary's contents are a fold through the five segments. Read back at the first result: the last stretch,
  the forces region and the padding do not write it, and the first stretch leaves there the reshape of the scatter-add
  of the energy region's output column (which holds `rowDot` of the atom features and the energy weights) at the
  molecule indices. Read back at the second result: the last stretch leaves there the scatter-add, at the target-atom
  indices, of the edge vectors times the broadcast of the first 625000 rows of the forces region's output column (which
  holds `rowDotBias` of the zero-padded edge features, the forces weights and the bias). The arguments reach every
  boundary as launched, since no segment writes one.
-/
import proofs.«160239_j86337432584822_1_alg».proof.Proof.Gen.KernelIdeal.Frame
import proofs.«160239_j86337432584822_1_alg».proof.Proof.EnergyArray
import proofs.«160239_j86337432584822_1_alg».proof.Proof.ForcesArray
import Idealize.ShloMosaic.Lib.StableHlo.Run

set_option maxRecDepth 16384

noncomputable section

namespace Cert.KernelIdeal.HostRead

open Cert.KernelIdeal Cert.KernelIdeal.Gen Cert.RowDot
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The arguments at the inner boundaries -/

/-- After the energy region an argument the region does not take holds its launch contents. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg6 (c : Dev nD) : W1 m ρ c (Proc.devRef .tc main_arg6) = m ((c : Thread nD τ).loc main_arg6) :=
  W1_of_ne m ρ c main_arg6 (by decide)
theorem W1_arg7 (c : Dev nD) : W1 m ρ c (Proc.devRef .tc main_arg7) = m ((c : Thread nD τ).loc main_arg7) :=
  W1_of_ne m ρ c main_arg7 (by decide)

/-- The energy region's output column holds `rowDot` of the atom features and the energy weights. -/
theorem W1_v0 (c : Dev nD) :
    W1 m ρ c (Proc.devRef .tc main_v0)
      = rowDot 100000 256 (m ((c : Thread nD τ).loc main_arg0)) (m ((c : Thread nD τ).loc main_arg5)) :=
  (W1_arr m ρ c 2).trans (Energy.final (V0 m ρ) c)

/-- At the forces region's entry the two stretches before it have left the arguments as launched, -/
theorem W3_arg2 (c : Dev nD) : W3 m ρ c (Proc.devRef .tc main_arg2) = m ((c : Thread nD τ).loc main_arg2) := by
  show after hostOps1_1 (after hostOps1 (W1 m ρ c)) (Proc.devRef .tc main_arg2) = _
  after_results
  exact W1_arg2 m ρ c
theorem W3_arg3 (c : Dev nD) : W3 m ρ c (Proc.devRef .tc main_arg3) = m ((c : Thread nD τ).loc main_arg3) := by
  show after hostOps1_1 (after hostOps1 (W1 m ρ c)) (Proc.devRef .tc main_arg3) = _
  after_results
  exact W1_arg3 m ρ c
theorem W3_arg6 (c : Dev nD) : W3 m ρ c (Proc.devRef .tc main_arg6) = m ((c : Thread nD τ).loc main_arg6) := by
  show after hostOps1_1 (after hostOps1 (W1 m ρ c)) (Proc.devRef .tc main_arg6) = _
  after_results
  exact W1_arg6 m ρ c
theorem W3_arg7 (c : Dev nD) : W3 m ρ c (Proc.devRef .tc main_arg7) = m ((c : Thread nD τ).loc main_arg7) := by
  show after hostOps1_1 (after hostOps1 (W1 m ρ c)) (Proc.devRef .tc main_arg7) = _
  after_results
  exact W1_arg7 m ρ c

/-- and the padded edge features are the edge features with 5000 rows of the padding value (the integer 0 as a float)
    below them. -/
theorem W3_v5 (c : Dev nD) :
    W3 m ρ c (Proc.devRef .tc main_v5)
      = pad S630000x128 ![0, 0] ![5000, 0] ![0, 0] (m ((c : Thread nD τ).loc main_arg1))
          (sitofp (F := Ideal) .f32 (constantI S_ 32 0#32)) pads_S625000x128_S630000x128_050000_000 h_S_ := by
  show after hostOps1_1 (after hostOps1 (W1 m ρ c)) (Proc.devRef .tc main_v5) = _
  after_results
  rw [W1_arg1]
  rfl

/-! ## The forces region's exit -/

/-- The forces region does not write the edge vectors or the target-atom indices. -/
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)

/-- The forces region's output column holds `rowDotBias` of the padded edge features, the forces weights and the bias. -/
theorem W4_v6 (c : Dev nD) :
    W4 m ρ c (Proc.devRef .tc main_v6)
      = rowDotBias 630000 128
          (pad S630000x128 ![0, 0] ![5000, 0] ![0, 0] (m ((c : Thread nD τ).loc main_arg1))
            (sitofp (F := Ideal) .f32 (constantI S_ 32 0#32)) pads_S625000x128_S630000x128_050000_000 h_S_)
          (m ((c : Thread nD τ).loc main_arg6)) (m ((c : Thread nD τ).loc main_arg7)) := by
  refine ((W4_arr m ρ c 3).trans (Forces.final (V3 m ρ) c)).trans ?_
  show rowDotBias 630000 128 (W3 m ρ c (Proc.devRef .tc main_v5)) (W3 m ρ c (Proc.devRef .tc main_arg6))
      (W3 m ρ c (Proc.devRef .tc main_arg7)) = _
  rw [W3_v5, W3_arg6, W3_arg7]

/-! ## The two results -/

/-- The molecule totals: the reshape of the scatter-add, at the molecule indices, of `rowDot` of the atom features and
    the energy weights into zeros. -/
def moleculeTotals (c : Dev nD) : Buf (Elt Ideal) ((c : Thread nD τ).loc main_v4) :=
  shapeCast S1000
    (Host.scatterAdd scatter_S1000x1_S100000x1_S100000x1_1_0_0_1
      (broadcastInDim S1000x1 ![] bcast_S_S1000x1 (constant (F := Ideal) S_ .f32 0x00000000#32))
      (broadcastInDim S100000x1 ![0] bcast_S100000_S100000x1_0 (m ((c : Thread nD τ).loc main_arg4)))
      (rowDot 100000 256 (m ((c : Thread nD τ).loc main_arg0)) (m ((c : Thread nD τ).loc main_arg5))))
    shapeCasts_S1000x1_S1000

/-- The atom forces: the scatter-add, at the target-atom indices, of the edge vectors times the broadcast of the first
    625000 rows of `rowDotBias` of the padded edge features, the forces weights and the bias, into zeros. -/
def atomForces (c : Dev nD) : Buf (Elt Ideal) ((c : Thread nD τ).loc main_v12) :=
  Host.scatterAdd scatter_S100000x3_S625000x1_S625000x3_1_0_0_1
    (broadcastInDim S100000x3 ![] bcast_S_S100000x3 (constant (F := Ideal) S_ .f32 0x00000000#32))
    (broadcastInDim S625000x1 ![0] bcast_S625000_S625000x1_0 (m ((c : Thread nD τ).loc main_arg3)))
    (mulf
      (broadcastInDim S625000x3 ![0, 1] bcast_S625000x1_S625000x3_0_1
        (extractStridedSlice S625000x1 ![0, 0]
          (rowDotBias 630000 128
            (pad S630000x128 ![0, 0] ![5000, 0] ![0, 0] (m ((c : Thread nD τ).loc main_arg1))
              (sitofp (F := Ideal) .f32 (constantI S_ 32 0#32)) pads_S625000x128_S630000x128_050000_000 h_S_)
            (m ((c : Thread nD τ).loc main_arg6)) (m ((c : Thread nD τ).loc main_arg7)))
          slices_S630000x1_S625000x1_0_0))
      (m ((c : Thread nD τ).loc main_arg2)))

/-- The first result holds the molecule totals. -/
theorem result_energy (c : Dev nD) : W5 m ρ c (Proc.devRef .tc main_v4) = moleculeTotals m c :=
  calc W5 m ρ c (Proc.devRef .tc main_v4)
    _ = W4 m ρ c (Proc.devRef .tc main_v4) := after_of_forall_not_mem (b := Proc.devRef .tc main_v4) _ _ (List.forall_iff_forall_mem.mp (by
          simp only [hostOps2, List.Forall, nullary_writes, unary_writes, binary_writes, ternary_writes, reshape_writes, Finset.mem_singleton]
          repeat' apply And.intro
          all_goals exact devRef_ne_of_ne (by decide)))
    _ = W3 m ρ c (Proc.devRef .tc main_v4) := W4_of_ne m ρ c main_v4 (by decide)
    _ = shapeCast S1000
          (Host.scatterAdd scatter_S1000x1_S100000x1_S100000x1_1_0_0_1
            (broadcastInDim S1000x1 ![] bcast_S_S1000x1 (constant (F := Ideal) S_ .f32 0x00000000#32))
            (broadcastInDim S100000x1 ![0] bcast_S100000_S100000x1_0 (W1 m ρ c (Proc.devRef .tc main_arg4)))
            (W1 m ρ c (Proc.devRef .tc main_v0)))
          shapeCasts_S1000x1_S1000 := by
      show after hostOps1_1 (after hostOps1 (W1 m ρ c)) (Proc.devRef .tc main_v4) = _
      after_results
      rfl
    _ = moleculeTotals m c := by rw [W1_arg4, W1_v0]; rfl

/-- The second result holds the atom forces. -/
theorem result_forces (c : Dev nD) : W5 m ρ c (Proc.devRef .tc main_v12) = atomForces m c := by
  have h : W5 m ρ c (Proc.devRef .tc main_v12)
      = Host.scatterAdd scatter_S100000x3_S625000x1_S625000x3_1_0_0_1
          (broadcastInDim S100000x3 ![] bcast_S_S100000x3 (constant (F := Ideal) S_ .f32 0x00000000#32))
          (broadcastInDim S625000x1 ![0] bcast_S625000_S625000x1_0 (W4 m ρ c (Proc.devRef .tc main_arg3)))
          (mulf
            (broadcastInDim S625000x3 ![0, 1] bcast_S625000x1_S625000x3_0_1
              (extractStridedSlice S625000x1 ![0, 0] (W4 m ρ c (Proc.devRef .tc main_v6)) slices_S630000x1_S625000x1_0_0))
            (W4 m ρ c (Proc.devRef .tc main_arg2))) := by
    show after hostOps2 (W4 m ρ c) (Proc.devRef .tc main_v12) = _
    after_results
  rw [h, W4_arg3, W4_v6, W4_arg2]
  rfl

end Cert.KernelIdeal.HostRead

end
-- ==== Proof.KernelValue.lean ====
/-
  The kernel program's run with its two results at the molecule totals and the atom forces.

  The run leaves each result buffer at the last boundary's contents, and those contents, read back through the
  segments, are the molecule totals and the atom forces of the launch arrays.
-/
import proofs.«160239_j86337432584822_1_alg».proof.Proof.KernelRun
import proofs.«160239_j86337432584822_1_alg».proof.Proof.HostRead

set_option maxRecDepth 16384

noncomputable section

namespace Cert.KernelIdeal.Results

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every weakly fair execution of the kernel program terminates with the first result at the molecule totals, the
    second at the atom forces, and the arguments as launched. -/
theorem run_values : θ_run defs (onTc (τ := τ) (main (F := Ideal))) ⟨m, fun _ => 0, ρ⟩ (fun r => ∀ c : Dev nD,
      r.2.mem ((c.tc : Thread nD τ).loc main_v4) = HostRead.moleculeTotals m c
      ∧ r.2.mem ((c.tc : Thread nD τ).loc main_v12) = HostRead.atomForces m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(h c).1.trans (HostRead.result_energy m ρ c), (h c).2.1.trans (HostRead.result_forces m ρ c), (h c).2.2⟩)
    (run m ρ)

end Cert.KernelIdeal.Results

end
-- ==== Proof.RefHeads.lean ====
/-
  The reference's two heads as `rowDot` and `rowDotBias`.

  Energy head: the reference's product of the atom features by the energy weights is `rowDot` of them, entry by entry.

  Forces head: the reference adds the bias, broadcast over all 625000 rows, to its product of the edge features by the
  forces weights. That is the first 625000 rows of `rowDotBias` of the features padded below with 5000 extra rows: a
  row r < 625000 of the padded features is row r of the features, so the two sums over the 128 columns agree term by
  term, and the length-one bias has a single entry, which both sides add. No property of the padding value is used,
  and no law beyond rewriting equal terms: the statement holds for all extended reals.
-/
import proofs.«160239_j86337432584822_1_alg».proof.Proof.Gen.ReferenceIdeal.Read
import proofs.«160239_j86337432584822_1_alg».proof.Proof.RowDot
import Idealize.ShloMosaic.Lib.KernelVsHost
import Idealize.ShloMosaic.Lib.Pipeline.Value
import Idealize.ShloMosaic.Lib.ValueIdx

set_option maxRecDepth 16384

noncomputable section

open scoped BigOperators

namespace Cert.ReferenceIdeal.Heads

open Cert.ReferenceIdeal Cert.ReferenceIdeal.Gen Cert.ReferenceIdeal.Read Cert.RowDot
open Idealize.ShloMosaic Idealize.ShloMosaic.ValueIdx

/-- The reference's energy product is `rowDot` of the atom features and the energy weights. -/
theorem energy_eq (x0 : FVec Ideal S100000x256 .f32) (x5 : FVec Ideal S256x1 .f32) :
    Host.dotGeneral (F := Ideal) dot_S100000x256_S256x1_S100000x1_1_0_0_1_n_n none x0 x5 = rowDot 100000 256 x0 x5 :=
  hostDot_eq 100000 256 x0 x5

/-- The reference's forces product plus the broadcast bias is the first 625000 rows of `rowDotBias` of the edge features
    padded below with 5000 rows of any value `z`. -/
theorem forces_eq (x1 : (⟨S625000x128, .f32⟩ : BufTy).Contents (Elt Ideal)) (x6 : (⟨S128x1, .f32⟩ : BufTy).Contents (Elt Ideal))
    (x7 : (⟨S1, .f32⟩ : BufTy).Contents (Elt Ideal)) (z : (⟨0, ![]⟩ : Shape).Idx → EReal)
    (hp : (⟨2, ![625000, 128]⟩ : Shape).Pads ![0, 0] ![5000, 0] ![0, 0] ⟨2, ![630000, 128]⟩)
    (hu : 0 < (⟨0, ![]⟩ : Shape).numel)
    (hs : (⟨2, ![630000, 1]⟩ : Shape).Slices ![0, 0] ⟨2, ![625000, 1]⟩) :
    extractStridedSlice ⟨2, ![625000, 1]⟩ ![0, 0]
        (rowDotBias 630000 128 (pad ⟨2, ![630000, 128]⟩ ![0, 0] ![5000, 0] ![0, 0] x1 z hp hu) x6 x7) hs
      = val_main_v8 (F := Ideal) x1 x6 x7 := by
  funext i
  have hi0 : (i 0).val < 625000 := (i 0).isLt
  refine (extractStridedSlice_apply _ _ hs i (ix2 ⟨(i 0).val, by omega⟩ (i 1)) (fun a => ?_)).trans ?_
  · match a with
    | ⟨0, _⟩ => show (i 0).val = 0 + (i 0).val; omega
    | ⟨1, _⟩ => show (i 1).val = 0 + (i 1).val; omega
  rw [val_main_v8_apply, val_main_v5_apply, val_main_v7_apply, val_main_v6_apply]
  show (∑ k : Fin 128, pad ⟨2, ![630000, 128]⟩ ![0, 0] ![5000, 0] ![0, 0] x1 z hp hu (ix2 ⟨(i 0).val, by omega⟩ k) * x6 (ix2 k (i 1)))
      + x7 (ix1 0)
    = (∑ k : Fin 128, x1 (lidx_main_v5 i k) * x6 (ridx_main_v5 i k)) + x7 (idx_main_v6 (idx_main_v7 i))
  refine congrArg₂ (· + ·) (Finset.sum_congr rfl fun k _ => ?_) (congrArg x7 ?_)
  · refine congrArg₂ (· * ·) ?_ (congrArg x6 ?_)
    · refine pad_apply_of_inside _ _ _ x1 z hp hu _ (lidx_main_v5 i k) (fun a => ?_)
      match a with
      | ⟨0, _⟩ => show (i 0).val = 0 + (i 0).val * (0 + 1); omega
      | ⟨1, _⟩ => show k.val = 0 + k.val * (0 + 1); omega
    · funext a
      match a with
      | ⟨0, _⟩ => rfl
      | ⟨1, _⟩ => rfl
  · funext a
    match a with
    | ⟨0, _⟩ => rfl

/-- The same, from the reference's own operations: its forces product plus its twice-broadcast bias. -/
theorem forces_ops_eq (x1 : FVec Ideal S625000x128 .f32) (x6 : FVec Ideal S128x1 .f32) (x7 : FVec Ideal S1 .f32)
    (z : (⟨0, ![]⟩ : Shape).Idx → EReal)
    (hp : (⟨2, ![625000, 128]⟩ : Shape).Pads ![0, 0] ![5000, 0] ![0, 0] ⟨2, ![630000, 128]⟩)
    (hu : 0 < (⟨0, ![]⟩ : Shape).numel)
    (hs : (⟨2, ![630000, 1]⟩ : Shape).Slices ![0, 0] ⟨2, ![625000, 1]⟩) :
    addf (Host.dotGeneral (F := Ideal) dot_S625000x128_S128x1_S625000x1_1_0_0_1_n_n none x1 x6)
        (broadcastInDim S625000x1 ![0, 1] bcast_S1x1_S625000x1_0_1 (broadcastInDim S1x1 ![1] bcast_S1_S1x1_1 x7))
      = extractStridedSlice ⟨2, ![625000, 1]⟩ ![0, 0]
          (rowDotBias 630000 128 (pad ⟨2, ![630000, 128]⟩ ![0, 0] ![5000, 0] ![0, 0] x1 z hp hu) x6 x7) hs :=
  (forces_eq x1 x6 x7 z hp hu hs).symm

end Cert.ReferenceIdeal.Heads

end
-- ==== Proof.lean ====
/-
  Two linear read-out heads of a molecular network, each followed by a scatter-sum: the kernel program against its
  plain reference, equal over the extended reals.

  Energy head. Both programs form, for every atom r, the sum over the 256 feature columns k of
  feature (r, k) * weight (k, 0), and scatter-add these 100000 values into 1000 molecule totals at the molecule
  indices. The kernel program computes the column of sums in ten row tiles of 10000 atoms on the matrix unit, into a zero
  accumulator; the reference computes it as one matrix product. A change of float format is the identity on the extended
  reals and the tiles cover the column, so both columns are the same function `rowDot` of the arguments, and the scatter-add
  and the reshape after it are the same operations of equal operands.

  Forces head. Both programs form, for every edge r, the sum over the 128 feature columns of
  feature (r, k) * weight (k, 0) plus the one bias entry, multiply it into the edge's three vector components and
  scatter-add the 625000 rows into 100000 atoms at the target-atom indices. The kernel program first pads the features with
  5000 extra rows so that 63 row tiles of 10000 fit, computes sum plus bias for all 630000 rows, and keeps the first
  625000; a kept row reads only the features of its own edge, so it is the reference's value, whatever the padding holds.
  The product with the edge vectors and the scatter-add are again the same operations of equal operands.

  Neither equality moves a factor across a sum or cancels anything, so none needs the inputs to be finite: the
  precondition is not opened. The idealization rewrote no operation, so there is nothing to preserve.
-/
import proofs.«160239_j86337432584822_1_alg».proof.Defs
import proofs.«160239_j86337432584822_1_alg».proof.Proof.Gen.Kernel
import proofs.«160239_j86337432584822_1_alg».proof.Proof.Gen.Kernel.Skeleton
import proofs.«160239_j86337432584822_1_alg».proof.Proof.Gen.Kernel.Launch
import proofs.«160239_j86337432584822_1_alg».proof.Proof.Gen.Kernel.Points
import proofs.«160239_j86337432584822_1_alg».proof.Proof.Gen.Kernel.Frame
import proofs.«160239_j86337432584822_1_alg».proof.Proof.Gen.KernelIdeal
import proofs.«160239_j86337432584822_1_alg».proof.Proof.Gen.KernelIdeal.Skeleton
import proofs.«160239_j86337432584822_1_alg».proof.Proof.Gen.KernelIdeal.Launch
import proofs.«160239_j86337432584822_1_alg».proof.Proof.Gen.KernelIdeal.Points
import proofs.«160239_j86337432584822_1_alg».proof.Proof.Gen.KernelIdeal.Frame
import proofs.«160239_j86337432584822_1_alg».proof.Proof.Gen.ReferenceIdeal
import proofs.«160239_j86337432584822_1_alg».proof.Proof.Gen.ReferenceIdeal.Run
import proofs.«160239_j86337432584822_1_alg».proof.Proof.Gen.ReferenceIdeal.Read
import proofs.«160239_j86337432584822_1_alg».proof.Proof.Gen.Pre_finite_inputs
import proofs.«160239_j86337432584822_1_alg».proof.Proof.KernelRun
import proofs.«160239_j86337432584822_1_alg».proof.Proof.HostRead
import proofs.«160239_j86337432584822_1_alg».proof.Proof.KernelValue
import proofs.«160239_j86337432584822_1_alg».proof.Proof.RefHeads
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the molecule totals and the atom forces described
    above: the kernel program's two results read back through its segments, the reference's two results its composed
    operations, made equal by the two heads' lemmas. -/
theorem algebraic : Cert.algebraic_KernelIdeal_ReferenceIdeal := by
  intro m ρ m' ρ' _ hagree
  refine ⟨fun c => Cert.KernelIdeal.HostRead.moleculeTotals m c, fun c => Cert.KernelIdeal.HostRead.atomForces m c,
    Cert.KernelIdeal.Results.run_values m ρ, ?_⟩
  refine (θ_run Cert.ReferenceIdeal.defs _ _).mono (fun _ h c => ?_) (Cert.ReferenceIdeal.Value.run (F := Ideal) m' ρ')
  obtain ⟨a0, a1, a2, a3, a4, a5, a6, a7⟩ := hagree c
  refine ⟨(h c).1.trans ?_, (h c).2.1.trans ?_, (h c).2.2⟩
  · rw [a0, a4, a5, Cert.ReferenceIdeal.Heads.energy_eq]
    rfl
  · rw [a1, a2, a3, a6, a7]
    rw [Cert.ReferenceIdeal.Heads.forces_ops_eq _ _ _ (sitofp (F := Ideal) .f32 (constantI Cert.KernelIdeal.S_ 32 0#32))
      Cert.KernelIdeal.Facts₀.pads_S625000x128_S630000x128_050000_000 Cert.KernelIdeal.Facts₀.h_S_
      Cert.KernelIdeal.Facts₀.slices_S630000x1_S625000x1_0_0]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
